-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S4096x512 : Shape := ⟨2, ![4096, 512]⟩
abbrev S256x16384 : Shape := ⟨2, ![256, 16384]⟩
abbrev S256x512 : Shape := ⟨2, ![256, 512]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S256x16384 : S_.BroadcastsInDim S256x16384 (![] : Fin 0 → Fin S256x16384.rank)
  reducesTo_S256x16384_S_d0_1 : S256x16384.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S256x16384 1) : IVec S_ 1 :=
  let main_c_5 : IVec S_ 1 := constantI S_ 1 1#1
  let main_v17 : IVec S_ 1 := (fun x v => Host.reduce IntOp.andi x v reducesTo_S256x16384_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S4096x16384 .f32) (main_arg1 : FVec F S4096x16384 .f32) (main_arg2 : FVec F S4096x512 .f32) (main_arg3 : FVec F S256x16384 .f32) (main_arg4 : FVec F S256x512 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S256x16384 .f32 := Host.absf main_arg3
  let main_cst_4 : FVec F S_ .f32 := constant S_ .f32 0x7F800000#32
  let main_v15 : FVec F S256x16384 .f32 := broadcastInDim S256x16384 ![] bcast_S_S256x16384 main_cst_4
  let main_v16 : IVec S256x16384 1 := cmpf .olt main_v14 main_v15
  fn_part1 (F := F) main_arg4 main_v13 main_v16
-- ==== Kernel.lean ====
abbrev S4096x16384 : Shape := ⟨2, ![4096, 16384]⟩
abbrev S4096x512 : Shape := ⟨2, ![4096, 512]⟩
abbrev S256x16384 : Shape := ⟨2, ![256, 16384]⟩
abbrev S256x512 : Shape := ⟨2, ![256, 512]⟩
abbrev S16384x256 : Shape := ⟨2, ![16384, 256]⟩
abbrev S512x256 : Shape := ⟨2, ![512, 256]⟩
abbrev S4096x1 : Shape := ⟨2, ![4096, 1]⟩
abbrev S1024x1024 : Shape := ⟨2, ![1024, 1024]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x512, .f32⟩
  | .hbm, ⟨3, _⟩ => ⟨S256x16384, .f32⟩
  | .hbm, ⟨4, _⟩ => ⟨S256x512, .f32⟩
  | .hbm, ⟨5, _⟩ => ⟨S16384x256, .f32⟩
  | .hbm, ⟨6, _⟩ => ⟨S512x256, .f32⟩
  | .hbm, ⟨7, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S512x256, .f32⟩
  | .local _ .vmem, ⟨9, _⟩ => ⟨S1024x1, .f32⟩
  | .local _ .vmem, ⟨10, _⟩ => ⟨S1024x1, .f32⟩
  | .local _ .vmem, ⟨11, _⟩ => ⟨S1024x256, .f32⟩
  | .local _ .vmem, ⟨12, _⟩ => ⟨S1024x256, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S256x16384_S16384x256_1_0 : S256x16384.Transposes [1, 0] S16384x256
  transposes_S256x512_S512x256_1_0 : S256x512.Transposes [1, 0] S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x1024_S1024x256_S1024x256_1_0_0_1_n_n_wf : DotDims.WF S1024x1024 S1024x256 S1024x256 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x16384.size a
  hwx0_0 : ∀ i : grid0.Coords, EltTy.bits .f32 = 32 ∨ (Rect.block (s := S4096x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .f32 = 32 ∨ (Rect.block (s := S4096x16384) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x16384 : Shape := ⟨2, ![4096, 16384]⟩
abbrev S4096x512 : Shape := ⟨2, ![4096, 512]⟩
abbrev S256x16384 : Shape := ⟨2, ![256, 16384]⟩
abbrev S256x512 : Shape := ⟨2, ![256, 512]⟩
abbrev S16384x256 : Shape := ⟨2, ![16384, 256]⟩
abbrev S4096x256 : Shape := ⟨2, ![4096, 256]⟩
abbrev S512x256 : Shape := ⟨2, ![512, 256]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x512, .f32⟩
  | .hbm, ⟨3, _⟩ => ⟨S256x16384, .f32⟩
  | .hbm, ⟨4, _⟩ => ⟨S256x512, .f32⟩
  | .hbm, ⟨5, _⟩ => ⟨S16384x256, .f32⟩
  | .hbm, ⟨6, _⟩ => ⟨S4096x256, .f32⟩
  | .hbm, ⟨7, _⟩ => ⟨S16384x256, .f32⟩
  | .hbm, ⟨8, _⟩ => ⟨S4096x256, .f32⟩
  | .hbm, ⟨9, _⟩ => ⟨S512x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  transposes_S256x16384_S16384x256_1_0 : S256x16384.Transposes [1, 0] S16384x256
  transposes_S256x512_S512x256_1_0 : S256x512.Transposes [1, 0] S512x256
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x16384_S16384x256_S4096x256_1_0_0_1_n_n_wf : DotDims.WF S4096x16384 S16384x256 S4096x256 [1] [0] [0] [1] [] []
  dot_S4096x512_S512x256_S4096x256_1_0_0_1_n_n_wf : DotDims.WF S4096x512 S512x256 S4096x256 [1] [0] [0] [1] [] []

variable [Facts₀]

def dot_S4096x16384_S16384x256_S4096x256_1_0_0_1_n_n : DotDims S4096x16384 S16384x256 S4096x256 where
  lhsContracting := [1]
  rhsContracting := [0]
  lhsNonContracting := [0]
  rhsNonContracting := [1]
  lhsBatch := []
  rhsBatch := []
  wf := dot_S4096x16384_S16384x256_S4096x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.Pieces.lean ====
/-
  What one run of the body leaves behind, case by case, as values.

  The body keeps two [1024, 256] accumulators across the sixteen steps of a block row. At every step it adds to the
  first the product of the step's [1024, 1024] block of the first operand with the step's [1024, 256] block of the
  transposed embedding weight, and to the second the same with the second operand. At the first step of a row both
  accumulators are first overwritten by zero; at the last step the body also writes the [1024, 1] output block from the
  relation block, the relation weight and the two accumulators as they stand AFTER that step's additions.
  Here each of these is read off the stores the run found: the accumulator after a step is the step's "add the block
  product" function of the accumulator before it (of zero, at a first step), and the output block of a last step is
  the epilogue function of the two accumulators just updated. Nothing depends on the float instance.
-/
import proofs.«138756_j62843961475630_2_alg».proof.Proof.Gen.KernelIdeal.Frame
import Idealize.ShloMosaic.Lib.Pipeline.Value
import Idealize.ShloMosaic.Lib.Tactic

set_option maxRecDepth 16384

noncomputable section
namespace Cert.KernelIdeal.Pieces
open Cert.KernelIdeal Cert.KernelIdeal.Gen Idealize.ShloMosaic Idealize.ShloMosaic.TcCoe Idealize.ShloMosaic.Tactic Idealize.SL.Sem

variable {F : FTy → Type} [FloatOps F]

/-- The zero offsets of a whole-block store or load. -/
theorem hz : (![0, 0] : Fin 2 → Nat) = fun _ => 0 := funext fun a => by fin_cases a <;> rfl

/-- First step of a row: the first accumulator ends at zero plus the first operand's block product. -/
theorem first_acc0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x512 .f32) (h4 : a4.IsWhole) (a5 : Memref sig .tc .vmem S1024x256 .f32) (h5 : a5.IsWhole) (a6 : Memref sig .tc .vmem S512x256 .f32) (h6 : a6.IsWhole) (a7 : Memref sig .tc .vmem S1024x1 .f32) (h7 : a7.IsWhole) (a8 : Memref sig .tc .vmem S1024x256 .f32) (h8 : a8.IsWhole) (a9 : Memref sig .tc .vmem S1024x256 .f32) (h9 : a9.IsWhole) (hc0 : cond0_0 i) (hc1 : ¬cond0_1 i) (x0 : Vec F S1024x1024 .f32) (x1 : Vec F S1024x1024 .f32) (x2 : Vec F S1024x512 .f32) (x3 : Vec F S1024x256 .f32) (x4 : Vec F S512x256 .f32) :
    sout0_A_0 c i a2 h2 a3 h3 a4 h4 a5 h5 a6 h6 a7 h7 a8 h8 a9 h9 hc0 hc1 x0 x1 x2 x3 x4 = k0_pay4 x0 x3 (k0_pay1 (F := F)) := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, h2.read_unread, h3.read_unread, h4.read_unread, h5.read_unread, h6.read_unread, h8.read_unread, h9.read_unread, View.ld_unit_zero (S := S1024x1024) hz, View.ld_unit_zero (S := S1024x512) hz, View.ld_unit_zero (S := S1024x256) hz, View.ld_unit_zero (S := S512x256) hz]

/-- First step of a row: the second accumulator ends at zero plus the second operand's block product. -/
theorem first_acc1 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x512 .f32) (h4 : a4.IsWhole) (a5 : Memref sig .tc .vmem S1024x256 .f32) (h5 : a5.IsWhole) (a6 : Memref sig .tc .vmem S512x256 .f32) (h6 : a6.IsWhole) (a7 : Memref sig .tc .vmem S1024x1 .f32) (h7 : a7.IsWhole) (a8 : Memref sig .tc .vmem S1024x256 .f32) (h8 : a8.IsWhole) (a9 : Memref sig .tc .vmem S1024x256 .f32) (h9 : a9.IsWhole) (hc0 : cond0_0 i) (hc1 : ¬cond0_1 i) (x0 : Vec F S1024x1024 .f32) (x1 : Vec F S1024x1024 .f32) (x2 : Vec F S1024x512 .f32) (x3 : Vec F S1024x256 .f32) (x4 : Vec F S512x256 .f32) :
    sout0_A_1 c i a2 h2 a3 h3 a4 h4 a5 h5 a6 h6 a7 h7 a8 h8 a9 h9 hc0 hc1 x0 x1 x2 x3 x4 = k0_pay5 x1 x3 (k0_pay2 (F := F)) := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, h2.read_unread, h3.read_unread, h4.read_unread, h5.read_unread, h6.read_unread, h8.read_unread, h9.read_unread, View.ld_unit_zero (S := S1024x1024) hz, View.ld_unit_zero (S := S1024x512) hz, View.ld_unit_zero (S := S1024x256) hz, View.ld_unit_zero (S := S512x256) hz]

/-- A middle step: the first accumulator gains the first operand's block product. -/
theorem mid_acc0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x512 .f32) (h4 : a4.IsWhole) (a5 : Memref sig .tc .vmem S1024x256 .f32) (h5 : a5.IsWhole) (a6 : Memref sig .tc .vmem S512x256 .f32) (h6 : a6.IsWhole) (a7 : Memref sig .tc .vmem S1024x1 .f32) (h7 : a7.IsWhole) (a8 : Memref sig .tc .vmem S1024x256 .f32) (h8 : a8.IsWhole) (a9 : Memref sig .tc .vmem S1024x256 .f32) (h9 : a9.IsWhole) (hc0 : ¬cond0_0 i) (hc1 : ¬cond0_1 i) (x0 : Vec F S1024x1024 .f32) (x1 : Vec F S1024x1024 .f32) (x2 : Vec F S1024x512 .f32) (x3 : Vec F S1024x256 .f32) (x4 : Vec F S512x256 .f32) (xs0 : Vec F S1024x256 .f32) (xs1 : Vec F S1024x256 .f32) :
    sout0_B_0 c i a2 h2 a3 h3 a4 h4 a5 h5 a6 h6 a7 h7 a8 h8 a9 h9 hc0 hc1 x0 x1 x2 x3 x4 xs0 xs1 = k0_pay4 x0 x3 xs0 := by
  unfold sout0_B_0
  rw [View.read_writes_eq_canon _ _ _ (scover0_B_0 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S1024x1024) hz, View.ld_unit_zero (S := S1024x512) hz, View.ld_unit_zero (S := S1024x256) hz, View.ld_unit_zero (S := S512x256) hz]

/-- A middle step: the second accumulator gains the second operand's block product. -/
theorem mid_acc1 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x512 .f32) (h4 : a4.IsWhole) (a5 : Memref sig .tc .vmem S1024x256 .f32) (h5 : a5.IsWhole) (a6 : Memref sig .tc .vmem S512x256 .f32) (h6 : a6.IsWhole) (a7 : Memref sig .tc .vmem S1024x1 .f32) (h7 : a7.IsWhole) (a8 : Memref sig .tc .vmem S1024x256 .f32) (h8 : a8.IsWhole) (a9 : Memref sig .tc .vmem S1024x256 .f32) (h9 : a9.IsWhole) (hc0 : ¬cond0_0 i) (hc1 : ¬cond0_1 i) (x0 : Vec F S1024x1024 .f32) (x1 : Vec F S1024x1024 .f32) (x2 : Vec F S1024x512 .f32) (x3 : Vec F S1024x256 .f32) (x4 : Vec F S512x256 .f32) (xs0 : Vec F S1024x256 .f32) (xs1 : Vec F S1024x256 .f32) :
    sout0_B_1 c i a2 h2 a3 h3 a4 h4 a5 h5 a6 h6 a7 h7 a8 h8 a9 h9 hc0 hc1 x0 x1 x2 x3 x4 xs0 xs1 = k0_pay5 x1 x3 xs1 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S1024x1024) hz, View.ld_unit_zero (S := S1024x512) hz, View.ld_unit_zero (S := S1024x256) hz, View.ld_unit_zero (S := S512x256) hz]

/-- The last step of a row: the first accumulator gains the first operand's block product, as at a middle step. -/
theorem last_acc0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x512 .f32) (h4 : a4.IsWhole) (a5 : Memref sig .tc .vmem S1024x256 .f32) (h5 : a5.IsWhole) (a6 : Memref sig .tc .vmem S512x256 .f32) (h6 : a6.IsWhole) (a7 : Memref sig .tc .vmem S1024x1 .f32) (h7 : a7.IsWhole) (a8 : Memref sig .tc .vmem S1024x256 .f32) (h8 : a8.IsWhole) (a9 : Memref sig .tc .vmem S1024x256 .f32) (h9 : a9.IsWhole) (hc0 : ¬cond0_0 i) (hc1 : cond0_1 i) (x0 : Vec F S1024x1024 .f32) (x1 : Vec F S1024x1024 .f32) (x2 : Vec F S1024x512 .f32) (x3 : Vec F S1024x256 .f32) (x4 : Vec F S512x256 .f32) (xs0 : Vec F S1024x256 .f32) (xs1 : Vec F S1024x256 .f32) :
    sout0_C_0 c i a2 h2 a3 h3 a4 h4 a5 h5 a6 h6 a7 h7 a8 h8 a9 h9 hc0 hc1 x0 x1 x2 x3 x4 xs0 xs1 = k0_pay4 x0 x3 xs0 := by
  unfold sout0_C_0
  rw [View.read_writes_eq_canon _ _ _ (scover0_C_0 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread, View.ld_unit_zero (S := S1024x1024) hz, View.ld_unit_zero (S := S1024x512) hz, View.ld_unit_zero (S := S1024x256) hz, View.ld_unit_zero (S := S512x256) hz]

/-- The last step of a row: the second accumulator gains the second operand's block product. -/
theorem last_acc1 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x512 .f32) (h4 : a4.IsWhole) (a5 : Memref sig .tc .vmem S1024x256 .f32) (h5 : a5.IsWhole) (a6 : Memref sig .tc .vmem S512x256 .f32) (h6 : a6.IsWhole) (a7 : Memref sig .tc .vmem S1024x1 .f32) (h7 : a7.IsWhole) (a8 : Memref sig .tc .vmem S1024x256 .f32) (h8 : a8.IsWhole) (a9 : Memref sig .tc .vmem S1024x256 .f32) (h9 : a9.IsWhole) (hc0 : ¬cond0_0 i) (hc1 : cond0_1 i) (x0 : Vec F S1024x1024 .f32) (x1 : Vec F S1024x1024 .f32) (x2 : Vec F S1024x512 .f32) (x3 : Vec F S1024x256 .f32) (x4 : Vec F S512x256 .f32) (xs0 : Vec F S1024x256 .f32) (xs1 : Vec F S1024x256 .f32) :
    sout0_C_1 c i a2 h2 a3 h3 a4 h4 a5 h5 a6 h6 a7 h7 a8 h8 a9 h9 hc0 hc1 x0 x1 x2 x3 x4 xs0 xs1 = k0_pay5 x1 x3 xs1 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread, View.ld_unit_zero (S := S1024x1024) hz, View.ld_unit_zero (S := S1024x512) hz, View.ld_unit_zero (S := S1024x256) hz, View.ld_unit_zero (S := S512x256) hz]

/-- The last step of a row: the output block is the epilogue of the relation block, the relation weight and the two
    accumulators as the step's own additions leave them. -/
theorem last_out (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x512 .f32) (h4 : a4.IsWhole) (a5 : Memref sig .tc .vmem S1024x256 .f32) (h5 : a5.IsWhole) (a6 : Memref sig .tc .vmem S512x256 .f32) (h6 : a6.IsWhole) (a7 : Memref sig .tc .vmem S1024x1 .f32) (h7 : a7.IsWhole) (a8 : Memref sig .tc .vmem S1024x256 .f32) (h8 : a8.IsWhole) (a9 : Memref sig .tc .vmem S1024x256 .f32) (h9 : a9.IsWhole) (hc0 : ¬cond0_0 i) (hc1 : cond0_1 i) (x0 : Vec F S1024x1024 .f32) (x1 : Vec F S1024x1024 .f32) (x2 : Vec F S1024x512 .f32) (x3 : Vec F S1024x256 .f32) (x4 : Vec F S512x256 .f32) (xs0 : Vec F S1024x256 .f32) (xs1 : Vec F S1024x256 .f32) :
    out0_C_5 c i a2 h2 a3 h3 a4 h4 a5 h5 a6 h6 a7 h7 a8 h8 a9 h9 hc0 hc1 x0 x1 x2 x3 x4 xs0 xs1 = k0_pay6 x2 x4 (k0_pay4 x0 x3 xs0) (k0_pay5 x1 x3 xs1) := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz, View.readCov_unit_zero (S := S1024x256) _ hz, View.readCov_unit_zero (S := S1024x256) _ hz]
  simp only [View.readAt_eq_ld, h2.read_unread, h3.read_unread, h4.read_unread, h5.read_unread, h6.read_unread, h8.read_unread, h9.read_unread, View.ld_unit_zero (S := S1024x1024) hz, View.ld_unit_zero (S := S1024x512) hz, View.ld_unit_zero (S := S1024x256) hz, View.ld_unit_zero (S := S512x256) hz]

end Cert.KernelIdeal.Pieces
end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.StepValue.lean ====
/-
  One step of the body, read entry by entry on the extended reals.

  With exact arithmetic a change of float format is the identity and a matrix product into a zero accumulator is the
  plain sum of products. So the accumulator after a step is, at row p and column d, what it held there plus the sum
  over the 1024 positions k of the step's operand block at (p, k) times the step's weight block at (k, d); the zero
  block is 0 everywhere; and the output block of a last step is, at row p, the logistic function of the sum over the
  256 columns d of (relation projection · first accumulator) · second accumulator at (p, d), the relation projection
  being the sum over the 512 positions k of the relation block at (p, k) times the relation weight at (k, d).
-/
import proofs.«138756_j62843961475630_2_alg».proof.Proof.Gen.KernelIdeal.Skeleton
import proofs.«138756_j62843961475630_2_alg».proof.Proof.LibColumn
import Idealize.ShloMosaic.Lib.ValueIdx
import Idealize.ShloMosaic.Lib.Pipeline.Value
import Idealize.ShloMosaic.PureOps.Ideal.Laws

set_option maxRecDepth 16384

noncomputable section
namespace Cert.KernelIdeal.StepValue
open Cert.KernelIdeal Cert.KernelIdeal.Gen Idealize.ShloMosaic Idealize.ShloMosaic.TcCoe Idealize.ShloMosaic.Tactic Idealize.SL.Sem Idealize.ShloMosaic.ValueIdx

open scoped BigOperators

theorem ent_lhs0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem ent_lhs1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem ent_rhs0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem ent_rhs1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The matrix product into a zero accumulator, at row `p` and column `d`: the sum over the 1024 contracted positions of
    the left operand's row entry times the right operand's column entry. -/
theorem ent_apply (x : FVec Ideal S1024x1024 .bf16) (w : FVec Ideal S1024x256 .bf16) (p : Fin 1024) (d : Fin 256) :
    matmul dot_S1024x1024_S1024x256_S1024x256_1_0_0_1_n_n none x w (constant (F := Ideal) S1024x256 .f32 0x00000000#32) (ix2 p d)
      = ∑ k : Fin 1024, x (ix2 p k) * w (ix2 k d) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p d) ((contrEquiv1 dot_S1024x1024_S1024x256_S1024x256_1_0_0_1_n_n 1024 rfl rfl).symm k) = ix2 p k := funext fun a => Fin.ext (by
    match a with
    | ⟨0, _⟩ => exact ent_lhs0 _ _
    | ⟨1, _⟩ => exact (ent_lhs1 _ _).trans hk)
  have er : dot_S1024x1024_S1024x256_S1024x256_1_0_0_1_n_n.rhsIdx (ix2 p d) ((contrEquiv1 dot_S1024x1024_S1024x256_S1024x256_1_0_0_1_n_n 1024 rfl rfl).symm k) = ix2 k d := funext fun a => Fin.ext (by
    match a with
    | ⟨0, _⟩ => exact (ent_rhs0 _ _).trans hk
    | ⟨1, _⟩ => exact ent_rhs1 _ _)
  rw [el, er]

theorem rel_lhs0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem rel_lhs1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem rel_rhs0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem rel_rhs1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The matrix product into a zero accumulator, at row `p` and column `d`: the sum over the 512 contracted positions of
    the left operand's row entry times the right operand's column entry. -/
theorem rel_apply (x : FVec Ideal S1024x512 .bf16) (w : FVec Ideal S512x256 .bf16) (p : Fin 1024) (d : Fin 256) :
    matmul dot_S1024x512_S512x256_S1024x256_1_0_0_1_n_n none x w (constant (F := Ideal) S1024x256 .f32 0x00000000#32) (ix2 p d)
      = ∑ k : Fin 512, x (ix2 p k) * w (ix2 k d) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p d) ((contrEquiv1 dot_S1024x512_S512x256_S1024x256_1_0_0_1_n_n 512 rfl rfl).symm k) = ix2 p k := funext fun a => Fin.ext (by
    match a with
    | ⟨0, _⟩ => exact rel_lhs0 _ _
    | ⟨1, _⟩ => exact (rel_lhs1 _ _).trans hk)
  have er : dot_S1024x512_S512x256_S1024x256_1_0_0_1_n_n.rhsIdx (ix2 p d) ((contrEquiv1 dot_S1024x512_S512x256_S1024x256_1_0_0_1_n_n 512 rfl rfl).symm k) = ix2 k d := funext fun a => Fin.ext (by
    match a with
    | ⟨0, _⟩ => exact (rel_rhs0 _ _).trans hk
    | ⟨1, _⟩ => exact rel_rhs1 _ _)
  rw [el, er]

/-- The block an accumulator is reset to is zero everywhere. -/
theorem zero0_apply (j : S1024x256.Idx) : k0_pay1 (F := Ideal) j = 0 := by
  unfold k0_pay1
  simp only [shapeCast_self]
  exact Ideal.ofBits_zero_f32

theorem zero1_apply (j : S1024x256.Idx) : k0_pay2 (F := Ideal) j = 0 := by
  unfold k0_pay2
  simp only [shapeCast_self]
  exact Ideal.ofBits_zero_f32

/-- The first accumulator after a step: what it held plus the block product of the first operand. -/
theorem acc0_apply (x0 : Vec Ideal S1024x1024 .f32) (x3 : Vec Ideal S1024x256 .f32) (a : Vec Ideal S1024x256 .f32)
    (p : Fin 1024) (d : Fin 256) :
    k0_pay4 x0 x3 a (ix2 p d) = a (ix2 p d) + ∑ k : Fin 1024, x0 (ix2 p k) * x3 (ix2 k d) := by
  unfold k0_pay4 k0_pay3
  simp only [shapeCast_self]
  refine (addf_apply _ _ _).trans ?_
  exact congrArg (a (ix2 p d) + ·) (ent_apply _ _ p d)

/-- The second accumulator after a step: what it held plus the block product of the second operand. -/
theorem acc1_apply (x1 : Vec Ideal S1024x1024 .f32) (x3 : Vec Ideal S1024x256 .f32) (a : Vec Ideal S1024x256 .f32)
    (p : Fin 1024) (d : Fin 256) :
    k0_pay5 x1 x3 a (ix2 p d) = a (ix2 p d) + ∑ k : Fin 1024, x1 (ix2 p k) * x3 (ix2 k d) := by
  unfold k0_pay5 k0_pay3
  simp only [shapeCast_self]
  refine (addf_apply _ _ _).trans ?_
  exact congrArg (a (ix2 p d) + ·) (ent_apply _ _ p d)

/-- The output block of a last step at row `p`: the logistic function of the row's score. -/
theorem out_apply (x2 : Vec Ideal S1024x512 .f32) (x4 : Vec Ideal S512x256 .f32) (a b : Vec Ideal S1024x256 .f32)
    (p : Fin 1024) (u : Fin 1) :
    k0_pay6 x2 x4 a b (ix2 p u)
      = Ideal.logistic (∑ d : Fin 256, ((∑ k : Fin 512, x2 (ix2 p k) * x4 (ix2 k d)) * a (ix2 p d)) * b (ix2 p d)) := by
  unfold k0_pay6
  simp only [shapeCast_self]
  show Ideal.logistic (shapeCast S1024x1 _ shapeCasts_S1024_S1024x1 (ix2 p u)) = _
  refine congrArg Ideal.logistic ?_
  refine (Cert.LibColumn.shapeCast_a_a1_apply _ shapeCasts_S1024_S1024x1 p u).trans ?_
  refine (Ideal.multiReduction_add_single _ _ reduces_S1024x256_S1024 _ _ (ix1 p)).trans ?_
  show ∑ d : Fin 256, _ = _
  refine Finset.sum_congr rfl fun d _ => ?_
  have e : reduces_S1024x256_S1024.lift (ix1 p) d = ix2 p d := funext fun a => Fin.ext (by
    match a with
    | ⟨0, _⟩ => rfl
    | ⟨1, _⟩ => rfl)
  refine (congrArg _ e).trans ?_
  refine (mulf_apply _ _ _).trans ?_
  refine congrArg (· * b (ix2 p d)) ?_
  refine (mulf_apply _ _ _).trans ?_
  exact congrArg (· * a (ix2 p d)) (rel_apply _ _ p d)

end Cert.KernelIdeal.StepValue
end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.Score.lean ====
/-
  The result both programs compute, as one function of the arrays, on the extended reals.

  For a row n of the batch, with the embedding weight and the relation weight given TRANSPOSED (contracted axis
  first): the projections  ea(n, d) = Σ_K x(n, K) · wt(K, d),  eb(n, d) = Σ_K y(n, K) · wt(K, d)  over the 16384
  embedding inputs and  er(n, d) = Σ_k r(n, k) · wr(k, d)  over the 512 relation inputs; the score
  Σ_d (er(n, d) · ea(n, d)) · eb(n, d)  over the 256 features; the result its logistic function.

  The one law that joins the two programs: a contraction over 16384 positions taken as sixteen consecutive blocks
  of 1024 is the whole contraction. Only associativity and commutativity of addition are used, so it holds with
  infinite entries as well.
-/
import proofs.«138756_j62843961475630_2_alg».proof.Proof.LibBlockSumN
import Idealize.ShloMosaic.Lib.ValueIdx
import Idealize.ShloMosaic.PureOps.Ideal

noncomputable section
namespace Cert.Score
open Idealize.ShloMosaic Idealize.ShloMosaic.ValueIdx
open scoped BigOperators

/-- Row `n` of `a` against column `d` of `b`: the contraction over the `K` shared positions. -/
def proj {A K B : Nat} (a : (⟨2, ![A, K]⟩ : Shape).Idx → EReal) (b : (⟨2, ![K, B]⟩ : Shape).Idx → EReal)
    (n : Fin A) (d : Fin B) : EReal :=
  ∑ k : Fin K, a (ix2 n k) * b (ix2 k d)

/-- The score of row `n`: the relation projection times the two embedding projections, summed over the features. -/
def score (x y : (⟨2, ![4096, 16384]⟩ : Shape).Idx → EReal) (r : (⟨2, ![4096, 512]⟩ : Shape).Idx → EReal)
    (wt : (⟨2, ![16384, 256]⟩ : Shape).Idx → EReal) (wr : (⟨2, ![512, 256]⟩ : Shape).Idx → EReal) (n : Fin 4096) : EReal :=
  ∑ d : Fin 256, (proj r wr n d * proj x wt n d) * proj y wt n d

/-- The result array: the logistic function of each row's score. -/
def result (x y : (⟨2, ![4096, 16384]⟩ : Shape).Idx → EReal) (r : (⟨2, ![4096, 512]⟩ : Shape).Idx → EReal)
    (wt : (⟨2, ![16384, 256]⟩ : Shape).Idx → EReal) (wr : (⟨2, ![512, 256]⟩ : Shape).Idx → EReal) :
    (⟨2, ![4096, 1]⟩ : Shape).Idx → EReal :=
  fun i => Ideal.logistic (score x y r wt wr ⟨(i 0).val, (i 0).isLt⟩)

/-- A contraction over the 16384 embedding inputs is the sum over the sixteen blocks `e` of the contractions over the
    block's 1024 positions `1024 e + k`. -/
theorem proj_blocks (a : (⟨2, ![4096, 16384]⟩ : Shape).Idx → EReal) (b : (⟨2, ![16384, 256]⟩ : Shape).Idx → EReal)
    (n : Fin 4096) (d : Fin 256) :
    proj a b n d = ∑ e : Fin 16, ∑ k : Fin 1024,
      a (ix2 n ⟨1024 * e.val + k.val, by have := e.isLt; have := k.isLt; omega⟩)
        * b (ix2 ⟨1024 * e.val + k.val, by have := e.isLt; have := k.isLt; omega⟩ d) := by
  unfold proj
  rw [Cert.BlockSumN.sum_blocks_of_eq 16 1024 (by norm_num : (16384 : Nat) = 16 * 1024)]
  refine Finset.sum_congr rfl fun e _ => Finset.sum_congr rfl fun k _ => ?_
  have hi : (⟨e.val * 1024 + k.val, (by norm_num : (16384 : Nat) = 16 * 1024) ▸ Cert.BlockSumN.blk_lt e k⟩ : Fin 16384)
      = ⟨1024 * e.val + k.val, by have := e.isLt; have := k.isLt; omega⟩ := Fin.ext (by show e.val * 1024 + k.val = 1024 * e.val + k.val; omega)
  rw [hi]

end Cert.Score
end
-- ==== Proof.Steps.lean ====
/-
  What the two accumulators and the output block hold after each grid point, entry by entry.

  At the first step of a block row an accumulator holds 0 plus the step's block product; at every later step what
  it held after the step before plus the step's block product; and at the last step of a row the output block holds,
  at row p, the logistic function of the sum over the features d of (relation projection · first accumulator) ·
  second accumulator at (p, d), the accumulators taken after that step.
-/
import proofs.«138756_j62843961475630_2_alg».proof.Proof.Gen.KernelIdeal.Frame
import proofs.«138756_j62843961475630_2_alg».proof.Proof.Pieces
import proofs.«138756_j62843961475630_2_alg».proof.Proof.StepValue
import proofs.«138756_j62843961475630_2_alg».proof.Proof.Score

set_option maxRecDepth 16384

noncomputable section
namespace Cert.KernelIdeal.Steps
open Cert.KernelIdeal Cert.KernelIdeal.Gen Idealize.ShloMosaic Idealize.ShloMosaic.TcCoe Idealize.ShloMosaic.Tactic Idealize.SL.Sem Idealize.ShloMosaic.ValueIdx

open scoped BigOperators
variable (m : (ℓ : Loc nD τ sig) → Buf (Elt Ideal) ℓ)

/-- The block product of the first operand at point `t`: row `p` of its block against column `d` of the weight block. -/
def part0 (c : Dev nD) (t : Fin cfg0.N) (p : Fin 1024) (d : Fin 256) : EReal :=
  Cert.Score.proj (A := 1024) (K := 1024) (B := 256) (iblk m c 0 t) (iblk m c 3 t) p d

/-- The block product of the second operand at point `t`. -/
def part1 (c : Dev nD) (t : Fin cfg0.N) (p : Fin 1024) (d : Fin 256) : EReal :=
  Cert.Score.proj (A := 1024) (K := 1024) (B := 256) (iblk m c 1 t) (iblk m c 3 t) p d

/-- The relation projection at point `t`: row `p` of the relation block against column `d` of the relation weight. -/
def relProj (c : Dev nD) (t : Fin cfg0.N) (p : Fin 1024) (d : Fin 256) : EReal :=
  Cert.Score.proj (A := 1024) (K := 512) (B := 256) (iblk m c 2 t) (iblk m c 4 t) p d

/-- First step of a row: the first accumulator is 0 plus the step's block product. -/
theorem acc0_first (c : Dev nD) (t : Fin cfg0.N) (h0 : t.val % 16 = 0) (p : Fin 1024) (d : Fin 256) :
    (outsAt0 m c t.val t.isLt).2.1 (ix2 p d) = 0 + part0 m c t p d := by
  have h1 : ¬t.val % 16 = 15 := by omega
  rw [outsAt0_A m c t h0 h1]
  dsimp only
  refine (congrFun (Pieces.first_acc0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 p d)).trans ?_
  refine (StepValue.acc0_apply (iblk m c 0 t) (iblk m c 3 t) _ p d).trans ?_
  rw [StepValue.zero0_apply]
  rfl

/-- First step of a row: the second accumulator is 0 plus the step's block product. -/
theorem acc1_first (c : Dev nD) (t : Fin cfg0.N) (h0 : t.val % 16 = 0) (p : Fin 1024) (d : Fin 256) :
    (outsAt0 m c t.val t.isLt).2.2 (ix2 p d) = 0 + part1 m c t p d := by
  have h1 : ¬t.val % 16 = 15 := by omega
  rw [outsAt0_A m c t h0 h1]
  dsimp only
  refine (congrFun (Pieces.first_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 p d)).trans ?_
  refine (StepValue.acc1_apply (iblk m c 1 t) (iblk m c 3 t) _ p d).trans ?_
  rw [StepValue.zero1_apply]
  rfl

/-- A later step: the first accumulator is what the step before left plus the step's block product. -/
theorem acc0_next (c : Dev nD) (t : Fin cfg0.N) (h0 : ¬t.val % 16 = 0) (p : Fin 1024) (d : Fin 256) :
    (outsAt0 m c t.val t.isLt).2.1 (ix2 p d) = (outsAt0 m c (t.val - 1) (Nat.lt_of_le_of_lt (Nat.sub_le _ _) t.isLt)).2.1 (ix2 p d) + part0 m c t p d := by
  by_cases h1 : t.val % 16 = 15
  · rw [outsAt0_C m c t h0 h1]
    dsimp only
    refine (congrFun (Pieces.last_acc0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    exact StepValue.acc0_apply (iblk m c 0 t) (iblk m c 3 t) _ p d
  · rw [outsAt0_B m c t h0 h1]
    dsimp only
    refine (congrFun (Pieces.mid_acc0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    exact StepValue.acc0_apply (iblk m c 0 t) (iblk m c 3 t) _ p d

/-- A later step: the second accumulator is what the step before left plus the step's block product. -/
theorem acc1_next (c : Dev nD) (t : Fin cfg0.N) (h0 : ¬t.val % 16 = 0) (p : Fin 1024) (d : Fin 256) :
    (outsAt0 m c t.val t.isLt).2.2 (ix2 p d) = (outsAt0 m c (t.val - 1) (Nat.lt_of_le_of_lt (Nat.sub_le _ _) t.isLt)).2.2 (ix2 p d) + part1 m c t p d := by
  by_cases h1 : t.val % 16 = 15
  · rw [outsAt0_C m c t h0 h1]
    dsimp only
    refine (congrFun (Pieces.last_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    exact StepValue.acc1_apply (iblk m c 1 t) (iblk m c 3 t) _ p d
  · rw [outsAt0_B m c t h0 h1]
    dsimp only
    refine (congrFun (Pieces.mid_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    exact StepValue.acc1_apply (iblk m c 1 t) (iblk m c 3 t) _ p d

/-- The last step of a row: the output block at row `p` is the logistic function of the sum over the features of
    (relation projection · first accumulator) · second accumulator, the accumulators as that step leaves them. -/
theorem out_last (c : Dev nD) (t : Fin cfg0.N) (h1 : t.val % 16 = 15) (p : Fin 1024) (u : Fin 1) :
    (outsAt0 m c t.val t.isLt).1 (ix2 p u)
      = Ideal.logistic (∑ d : Fin 256, (relProj m c t p d * (outsAt0 m c t.val t.isLt).2.1 (ix2 p d))
          * (outsAt0 m c t.val t.isLt).2.2 (ix2 p d)) := by
  have h0 : ¬t.val % 16 = 0 := by omega
  rw [outsAt0_C m c t h0 h1]
  dsimp only
  rw [Pieces.last_acc0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.last_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  refine (congrFun (Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p u)).trans ?_
  exact StepValue.out_apply (iblk m c 2 t) (iblk m c 4 t) _ _ p u

end Cert.KernelIdeal.Steps
end
-- ==== Proof.Blocks.lean ====
/-
  The blocks the pipeline hands the body, as entries of the arrays they are cut from.

  The grid has 4 x 16 points; point t is block row t / 16, step t % 16. At point t the first and second operands'
  [1024, 1024] blocks are rows 1024 (t / 16) + p and columns 1024 (t % 16) + k of their [4096, 16384] arrays; the
  relation operand's [1024, 512] block is rows 1024 (t / 16) + p, all columns; the transposed embedding weight's
  [1024, 256] block is rows 1024 (t % 16) + k of its [16384, 256] array; the transposed relation weight comes whole.
  The block indices are decided once over the 64 points.
-/
import proofs.«138756_j62843961475630_2_alg».proof.Proof.Gen.KernelIdeal.Frame
import Idealize.ShloMosaic.Lib.ValueIdx
import Idealize.ShloMosaic.Lib.Pipeline.Value

set_option maxRecDepth 16384

noncomputable section
namespace Cert.KernelIdeal.Blocks
open Cert.KernelIdeal Cert.KernelIdeal.Gen Idealize.ShloMosaic Idealize.ShloMosaic.TcCoe Idealize.ShloMosaic.Tactic Idealize.SL.Sem Idealize.ShloMosaic.ValueIdx

variable {F : FTy → Type} [FloatOps F]
variable (m : (ℓ : Loc nD τ sig) → Buf (Elt F) ℓ)

/-- There are 64 grid points. -/
theorem lt64 (t : Fin cfg0.N) : t.val < 64 := lt_of_lt_of_eq t.isLt N_0

/-- The block index of every window at every point: block row `t / 16`, step `t % 16`. -/
theorem idx_facts : ∀ t : Fin cfg0.N,
    (win0_0.index t 0 = t.val / 16 ∧ win0_0.index t 1 = t.val % 16)
  ∧ (win0_1.index t 0 = t.val / 16 ∧ win0_1.index t 1 = t.val % 16)
  ∧ (win0_2.index t 0 = t.val / 16 ∧ win0_2.index t 1 = 0)
  ∧ (win0_3.index t 0 = t.val % 16 ∧ win0_3.index t 1 = 0)
  ∧ (win0_4.index t 0 = 0 ∧ win0_4.index t 1 = 0)
  ∧ (win0_5.index t 0 = t.val / 16 ∧ win0_5.index t 1 = 0) :=
  (by decide +kernel : ∀ t : Fin grid0.N, _)

/-- The first operand's block at point `t`, entry `(p, k)`. -/
theorem blk0_apply (c : Dev nD) (t : Fin cfg0.N) (p k : Fin 1024) :
    (iblk m c 0 t : Vec F S1024x1024 .f32) (ix2 p k)
      = (V m c main_arg0 : S4096x16384.Idx → Elt F .f32)
          (ix2 ⟨1024 * (t.val / 16) + p.val, by have := lt64 t; omega⟩ ⟨1024 * (t.val % 16) + k.val, by have := lt64 t; omega⟩) := by
  obtain ⟨⟨h0, h1⟩, -⟩ := idx_facts t
  unfold iblk
  rw [View.read_apply]
  show V m c main_arg0 _ = V m c main_arg0 _
  congr 1
  funext a
  apply Fin.ext
  match a with
  | ⟨0, _⟩ =>
    show win0_0.index t 0 * 1024 + 1 * p.val = 1024 * (t.val / 16) + p.val
    rw [h0]; omega
  | ⟨1, _⟩ =>
    show win0_0.index t 1 * 1024 + 1 * k.val = 1024 * (t.val % 16) + k.val
    rw [h1]; omega

/-- The second operand's block at point `t`, entry `(p, k)`. -/
theorem blk1_apply (c : Dev nD) (t : Fin cfg0.N) (p k : Fin 1024) :
    (iblk m c 1 t : Vec F S1024x1024 .f32) (ix2 p k)
      = (V m c main_arg1 : S4096x16384.Idx → Elt F .f32)
          (ix2 ⟨1024 * (t.val / 16) + p.val, by have := lt64 t; omega⟩ ⟨1024 * (t.val % 16) + k.val, by have := lt64 t; omega⟩) := by
  obtain ⟨-, ⟨h0, h1⟩, -⟩ := idx_facts t
  unfold iblk
  rw [View.read_apply]
  show V m c main_arg1 _ = V m c main_arg1 _
  congr 1
  funext a
  apply Fin.ext
  match a with
  | ⟨0, _⟩ =>
    show win0_1.index t 0 * 1024 + 1 * p.val = 1024 * (t.val / 16) + p.val
    rw [h0]; omega
  | ⟨1, _⟩ =>
    show win0_1.index t 1 * 1024 + 1 * k.val = 1024 * (t.val % 16) + k.val
    rw [h1]; omega

/-- The relation operand's block at point `t`, entry `(p, k)`. -/
theorem blk2_apply (c : Dev nD) (t : Fin cfg0.N) (p : Fin 1024) (k : Fin 512) :
    (iblk m c 2 t : Vec F S1024x512 .f32) (ix2 p k)
      = (V m c main_arg2 : S4096x512.Idx → Elt F .f32)
          (ix2 ⟨1024 * (t.val / 16) + p.val, by have := lt64 t; omega⟩ k) := by
  obtain ⟨-, -, ⟨h0, h1⟩, -⟩ := idx_facts t
  unfold iblk
  rw [View.read_apply]
  show V m c main_arg2 _ = V m c main_arg2 _
  congr 1
  funext a
  apply Fin.ext
  match a with
  | ⟨0, _⟩ =>
    show win0_2.index t 0 * 1024 + 1 * p.val = 1024 * (t.val / 16) + p.val
    rw [h0]; omega
  | ⟨1, _⟩ =>
    show win0_2.index t 1 * 512 + 1 * k.val = k.val
    rw [h1]; omega

/-- The transposed embedding weight's block at point `t`, entry `(k, d)`. -/
theorem blk3_apply (c : Dev nD) (t : Fin cfg0.N) (k : Fin 1024) (d : Fin 256) :
    (iblk m c 3 t : Vec F S1024x256 .f32) (ix2 k d)
      = (V m c main_v0 : S16384x256.Idx → Elt F .f32)
          (ix2 ⟨1024 * (t.val % 16) + k.val, by have := lt64 t; omega⟩ d) := by
  obtain ⟨-, -, -, ⟨h0, h1⟩, -⟩ := idx_facts t
  unfold iblk
  rw [View.read_apply]
  show V m c main_v0 _ = V m c main_v0 _
  congr 1
  funext a
  apply Fin.ext
  match a with
  | ⟨0, _⟩ =>
    show win0_3.index t 0 * 1024 + 1 * k.val = 1024 * (t.val % 16) + k.val
    rw [h0]; omega
  | ⟨1, _⟩ =>
    show win0_3.index t 1 * 256 + 1 * d.val = d.val
    rw [h1]; omega

/-- The transposed relation weight comes whole at every point. -/
theorem blk4_apply (c : Dev nD) (t : Fin cfg0.N) (k : Fin 512) (d : Fin 256) :
    (iblk m c 4 t : Vec F S512x256 .f32) (ix2 k d)
      = (V m c main_v1 : S512x256.Idx → Elt F .f32) (ix2 k d) := by
  obtain ⟨-, -, -, -, ⟨h0, h1⟩, -⟩ := idx_facts t
  unfold iblk
  rw [View.read_apply]
  show V m c main_v1 _ = V m c main_v1 _
  congr 1
  funext a
  apply Fin.ext
  match a with
  | ⟨0, _⟩ =>
    show win0_4.index t 0 * 512 + 1 * k.val = k.val
    rw [h0]; omega
  | ⟨1, _⟩ =>
    show win0_4.index t 1 * 256 + 1 * d.val = d.val
    rw [h1]; omega

end Cert.KernelIdeal.Blocks
end
-- ==== Proof.LibBlockFold.lean ====
/-
  An accumulator carried over the steps of one block row.

  Let `acc m` be what an accumulator holds after step `m`, and `part m` what step `m` adds. If the first step
  of a row (`m = base`) leaves `0 + part base` and every later step `base + (s + 1)` of the row leaves what the
  step before left plus its own part, then after step `base + s` the accumulator is the sum of the parts of the
  steps `base … base + s`. Induction on `s`; holds in any additive commutative monoid, so for extended reals
  with no finiteness.
-/
import Idealize.ShloMosaic.Lib.ValueIdx

namespace Cert.BlockFold

open scoped BigOperators

theorem fold_blocks {α : Type} [AddCommMonoid α] (n : Nat) (acc part : Nat → α) (base : Nat)
    (h0 : acc base = 0 + part base)
    (hs : ∀ s, s + 1 < n → acc (base + (s + 1)) = acc (base + s) + part (base + (s + 1))) :
    ∀ s, s < n → acc (base + s) = ∑ s' ∈ Finset.range (s + 1), part (base + s') := by
  intro s
  induction s with
  | zero =>
    intro _
    rw [Nat.add_zero, h0, zero_add, Finset.sum_range_one, Nat.add_zero]
  | succ s ih =>
    intro h
    rw [hs s h, ih (Nat.lt_of_succ_lt h), Finset.sum_range_succ (fun s' => part (base + s')) (s + 1)]

end Cert.BlockFold
-- ==== Proof.Accum.lean ====
/-
  The accumulators at the end of a block row are the whole projections.

  Along the sixteen steps of block row q an accumulator starts at 0 plus the first block product and gains one block
  product per step, so after the last step it is the sum of the sixteen block products. Block product e of row q reads
  rows 1024 q + p and columns 1024 e + k of the operand and rows 1024 e + k of the transposed weight; summing over e
  and k is the contraction over all 16384 columns, because a sum over 16384 positions is the sum over sixteen blocks
  of 1024. The relation projection is read from the relation block and the whole relation weight directly.
-/
import proofs.«138756_j62843961475630_2_alg».proof.Proof.Steps
import proofs.«138756_j62843961475630_2_alg».proof.Proof.Blocks
import proofs.«138756_j62843961475630_2_alg».proof.Proof.LibBlockFold

set_option maxRecDepth 16384

noncomputable section
namespace Cert.KernelIdeal.Accum
open Cert.KernelIdeal Cert.KernelIdeal.Gen Idealize.ShloMosaic Idealize.ShloMosaic.TcCoe Idealize.ShloMosaic.Tactic Idealize.SL.Sem Idealize.ShloMosaic.ValueIdx

open scoped BigOperators
variable (m : (ℓ : Loc nD τ sig) → Buf (Elt Ideal) ℓ)

/-- The arrays as the region finds them, typed as plain arrays of extended reals. -/
abbrev arrX (c : Dev nD) : (⟨2, ![4096, 16384]⟩ : Shape).Idx → EReal := V m c main_arg0
abbrev arrY (c : Dev nD) : (⟨2, ![4096, 16384]⟩ : Shape).Idx → EReal := V m c main_arg1
abbrev arrR (c : Dev nD) : (⟨2, ![4096, 512]⟩ : Shape).Idx → EReal := V m c main_arg2
abbrev arrWt (c : Dev nD) : (⟨2, ![16384, 256]⟩ : Shape).Idx → EReal := V m c main_v0
abbrev arrWr (c : Dev nD) : (⟨2, ![512, 256]⟩ : Shape).Idx → EReal := V m c main_v1

/-- Row `p` of the block row that point `t` belongs to, as a row of the whole array. -/
def rowAt (t : Fin cfg0.N) (p : Fin 1024) : Fin 4096 :=
  ⟨1024 * (t.val / 16) + p.val, by have := Blocks.lt64 t; omega⟩

/-- Column `k` of step `e`'s block, as a column of the whole array. -/
def colAt (e : Fin 16) (k : Fin 1024) : Fin 16384 :=
  ⟨1024 * e.val + k.val, by have := e.isLt; have := k.isLt; omega⟩

theorem outsAt0_congr (c : Dev nD) (n n' : ℕ) (e : n = n') (h : n < cfg0.N) (h' : n' < cfg0.N) :
    outsAt0 m c n h = outsAt0 m c n' h' := by subst e; rfl

/-- The accumulators and the block products as functions of a bare point number (0 past the grid). -/
def acc0N (c : Dev nD) (p : Fin 1024) (d : Fin 256) (n : ℕ) : EReal :=
  if h : n < cfg0.N then (outsAt0 m c n h).2.1 (ix2 p d) else 0
def acc1N (c : Dev nD) (p : Fin 1024) (d : Fin 256) (n : ℕ) : EReal :=
  if h : n < cfg0.N then (outsAt0 m c n h).2.2 (ix2 p d) else 0
def part0N (c : Dev nD) (p : Fin 1024) (d : Fin 256) (n : ℕ) : EReal :=
  if h : n < cfg0.N then Steps.part0 m c ⟨n, h⟩ p d else 0
def part1N (c : Dev nD) (p : Fin 1024) (d : Fin 256) (n : ℕ) : EReal :=
  if h : n < cfg0.N then Steps.part1 m c ⟨n, h⟩ p d else 0

theorem lt_N {n : ℕ} (h : n < 64) : n < cfg0.N := lt_of_lt_of_eq h N_0.symm

/-- After step `s` of block row `q` the first accumulator is the sum of the block products of steps `0 … s`. -/
theorem acc0_row (c : Dev nD) (q : ℕ) (hq : q < 4) (p : Fin 1024) (d : Fin 256) :
    ∀ s, s < 16 → acc0N m c p d (16 * q + s) = ∑ s' ∈ Finset.range (s + 1), part0N m c p d (16 * q + s') := by
  refine Cert.BlockFold.fold_blocks 16 (acc0N m c p d) (part0N m c p d) (16 * q) ?_ ?_
  · have h : 16 * q < cfg0.N := lt_N (by omega)
    unfold acc0N part0N
    rw [dif_pos h, dif_pos h]
    exact Steps.acc0_first m c ⟨16 * q, h⟩ (by show 16 * q % 16 = 0; omega) p d
  · intro s hs
    have h : 16 * q + (s + 1) < cfg0.N := lt_N (by omega)
    have h' : 16 * q + s < cfg0.N := lt_N (by omega)
    unfold acc0N part0N
    rw [dif_pos h, dif_pos h', dif_pos h]
    refine (Steps.acc0_next m c ⟨16 * q + (s + 1), h⟩ (by show ¬(16 * q + (s + 1)) % 16 = 0; omega) p d).trans ?_
    rw [outsAt0_congr m c ((⟨16 * q + (s + 1), h⟩ : Fin cfg0.N).val - 1) (16 * q + s) (by show 16 * q + (s + 1) - 1 = 16 * q + s; omega) _ h']

/-- The same for the second accumulator. -/
theorem acc1_row (c : Dev nD) (q : ℕ) (hq : q < 4) (p : Fin 1024) (d : Fin 256) :
    ∀ s, s < 16 → acc1N m c p d (16 * q + s) = ∑ s' ∈ Finset.range (s + 1), part1N m c p d (16 * q + s') := by
  refine Cert.BlockFold.fold_blocks 16 (acc1N m c p d) (part1N m c p d) (16 * q) ?_ ?_
  · have h : 16 * q < cfg0.N := lt_N (by omega)
    unfold acc1N part1N
    rw [dif_pos h, dif_pos h]
    exact Steps.acc1_first m c ⟨16 * q, h⟩ (by show 16 * q % 16 = 0; omega) p d
  · intro s hs
    have h : 16 * q + (s + 1) < cfg0.N := lt_N (by omega)
    have h' : 16 * q + s < cfg0.N := lt_N (by omega)
    unfold acc1N part1N
    rw [dif_pos h, dif_pos h', dif_pos h]
    refine (Steps.acc1_next m c ⟨16 * q + (s + 1), h⟩ (by show ¬(16 * q + (s + 1)) % 16 = 0; omega) p d).trans ?_
    rw [outsAt0_congr m c ((⟨16 * q + (s + 1), h⟩ : Fin cfg0.N).val - 1) (16 * q + s) (by show 16 * q + (s + 1) - 1 = 16 * q + s; omega) _ h']

/-- Column `k` of the block of the step that point `t` is, as a column of the whole array. -/
def colOf (t : Fin cfg0.N) (k : Fin 1024) : Fin 16384 :=
  ⟨1024 * (t.val % 16) + k.val, by have := k.isLt; omega⟩

/-- The first operand's block product at point `t`, over the arrays. -/
theorem part0_eq (c : Dev nD) (t : Fin cfg0.N) (p : Fin 1024) (d : Fin 256) :
    Steps.part0 m c t p d = ∑ k : Fin 1024, arrX m c (ix2 (rowAt t p) (colOf t k)) * arrWt m c (ix2 (colOf t k) d) := by
  unfold Steps.part0 Cert.Score.proj
  refine Finset.sum_congr rfl fun k _ => ?_
  exact congrArg₂ (· * ·) (Blocks.blk0_apply m c t p k) (Blocks.blk3_apply m c t k d)

/-- After the last step of a block row the first accumulator is the whole projection of the row. -/
theorem acc0_last (c : Dev nD) (t : Fin cfg0.N) (h1 : t.val % 16 = 15) (p : Fin 1024) (d : Fin 256) :
    (outsAt0 m c t.val t.isLt).2.1 (ix2 p d) = Cert.Score.proj (arrX m c) (arrWt m c) (rowAt t p) d := by
  have ht := Blocks.lt64 t
  have hq : t.val / 16 < 4 := by omega
  have e : 16 * (t.val / 16) + 15 = t.val := by omega
  have hrow := acc0_row m c (t.val / 16) hq p d 15 (by norm_num)
  have hl : acc0N m c p d (16 * (t.val / 16) + 15) = (outsAt0 m c t.val t.isLt).2.1 (ix2 p d) := by
    unfold acc0N
    rw [dif_pos (lt_N (by omega)), outsAt0_congr m c _ t.val e _ t.isLt]
  rw [← hl, hrow, Finset.sum_range, Cert.Score.proj_blocks]
  refine Finset.sum_congr rfl fun s _ => ?_
  have hs : 16 * (t.val / 16) + s.val < cfg0.N := lt_N (by have := s.isLt; omega)
  unfold part0N
  rw [dif_pos hs, part0_eq]
  refine Finset.sum_congr rfl fun k _ => ?_
  have e1 : rowAt ⟨16 * (t.val / 16) + s.val, hs⟩ p = rowAt t p := Fin.ext (by
    show 1024 * ((16 * (t.val / 16) + s.val) / 16) + p.val = 1024 * (t.val / 16) + p.val
    have := s.isLt; omega)
  have e2 : ∀ h, colOf ⟨16 * (t.val / 16) + s.val, hs⟩ k = (⟨1024 * s.val + k.val, h⟩ : Fin 16384) := fun h => Fin.ext (by
    show 1024 * ((16 * (t.val / 16) + s.val) % 16) + k.val = 1024 * s.val + k.val
    have := s.isLt; omega)
  rw [e1, e2]

/-- The second operand's block product at point `t`, over the arrays. -/
theorem part1_eq (c : Dev nD) (t : Fin cfg0.N) (p : Fin 1024) (d : Fin 256) :
    Steps.part1 m c t p d = ∑ k : Fin 1024, arrY m c (ix2 (rowAt t p) (colOf t k)) * arrWt m c (ix2 (colOf t k) d) := by
  unfold Steps.part1 Cert.Score.proj
  refine Finset.sum_congr rfl fun k _ => ?_
  exact congrArg₂ (· * ·) (Blocks.blk1_apply m c t p k) (Blocks.blk3_apply m c t k d)

/-- After the last step of a block row the second accumulator is the whole projection of the row. -/
theorem acc1_last (c : Dev nD) (t : Fin cfg0.N) (h1 : t.val % 16 = 15) (p : Fin 1024) (d : Fin 256) :
    (outsAt0 m c t.val t.isLt).2.2 (ix2 p d) = Cert.Score.proj (arrY m c) (arrWt m c) (rowAt t p) d := by
  have ht := Blocks.lt64 t
  have hq : t.val / 16 < 4 := by omega
  have e : 16 * (t.val / 16) + 15 = t.val := by omega
  have hrow := acc1_row m c (t.val / 16) hq p d 15 (by norm_num)
  have hl : acc1N m c p d (16 * (t.val / 16) + 15) = (outsAt0 m c t.val t.isLt).2.2 (ix2 p d) := by
    unfold acc1N
    rw [dif_pos (lt_N (by omega)), outsAt0_congr m c _ t.val e _ t.isLt]
  rw [← hl, hrow, Finset.sum_range, Cert.Score.proj_blocks]
  refine Finset.sum_congr rfl fun s _ => ?_
  have hs : 16 * (t.val / 16) + s.val < cfg0.N := lt_N (by have := s.isLt; omega)
  unfold part1N
  rw [dif_pos hs, part1_eq]
  refine Finset.sum_congr rfl fun k _ => ?_
  have e1 : rowAt ⟨16 * (t.val / 16) + s.val, hs⟩ p = rowAt t p := Fin.ext (by
    show 1024 * ((16 * (t.val / 16) + s.val) / 16) + p.val = 1024 * (t.val / 16) + p.val
    have := s.isLt; omega)
  have e2 : ∀ h, colOf ⟨16 * (t.val / 16) + s.val, hs⟩ k = (⟨1024 * s.val + k.val, h⟩ : Fin 16384) := fun h => Fin.ext (by
    show 1024 * ((16 * (t.val / 16) + s.val) % 16) + k.val = 1024 * s.val + k.val
    have := s.isLt; omega)
  rw [e1, e2]

/-- The relation projection at any point of a block row is the whole relation projection of the row. -/
theorem relProj_eq (c : Dev nD) (t : Fin cfg0.N) (p : Fin 1024) (d : Fin 256) :
    Steps.relProj m c t p d = Cert.Score.proj (arrR m c) (arrWr m c) (rowAt t p) d := by
  unfold Steps.relProj Cert.Score.proj
  refine Finset.sum_congr rfl fun k _ => ?_
  exact congrArg₂ (· * ·) (Blocks.blk2_apply m c t p k) (Blocks.blk4_apply m c t k d)

/-- The output block of a row's last step, at row `p`: the logistic function of the score of that row of the arrays. -/
theorem out_row (c : Dev nD) (t : Fin cfg0.N) (h1 : t.val % 16 = 15) (p : Fin 1024) (u : Fin 1) :
    (outsAt0 m c t.val t.isLt).1 (ix2 p u)
      = Ideal.logistic (Cert.Score.score (arrX m c) (arrY m c) (arrR m c) (arrWt m c) (arrWr m c) (rowAt t p)) := by
  rw [Steps.out_last m c t h1 p u]
  unfold Cert.Score.score
  refine congrArg Ideal.logistic (Finset.sum_congr rfl fun d _ => ?_)
  rw [acc0_last m c t h1 p d, acc1_last m c t h1 p d, relProj_eq m c t p d]

end Cert.KernelIdeal.Accum
end
-- ==== Proof.Whole.lean ====
/-
  The kernel's result array after the run is the result function of the arrays.

  The output window's block index moves only with the block row, and the block is written back once per row, after the
  row's last step (points 15, 31, 47, 63). What is written back there is, at row p of the block, the logistic function
  of the score of row 1024 q + p of the arrays; block q of the [4096, 1] result array is rows 1024 q … 1024 q + 1023,
  so each write-back is a block of ONE whole-array function, and the four blocks cover the array: row r lies in the
  block written back at point 16 (r / 1024) + 15. The two transposed weights the region reads are the host's
  transposes of the weight arguments; the other three arrays are the arguments themselves.
-/
import proofs.«138756_j62843961475630_2_alg».proof.Proof.Gen.KernelIdeal.Value
import proofs.«138756_j62843961475630_2_alg».proof.Proof.Accum
import Idealize.ShloMosaic.Lib.StableHlo.Run

set_option maxRecDepth 16384

noncomputable section
namespace Cert.KernelIdeal.Whole
open Cert.KernelIdeal Cert.KernelIdeal.Gen Idealize.ShloMosaic Idealize.ShloMosaic.TcCoe Idealize.ShloMosaic.Tactic Idealize.SL.Sem Idealize.ShloMosaic.ValueIdx

open Idealize.ShloMosaic.Pipeline (Dat)
open scoped BigOperators
variable (m : (ℓ : Loc nD τ sig) → Buf (Elt Ideal) ℓ) (ρ : Dev nD → PrngReg)

/-- The result function over the arrays as the region finds them. -/
abbrev resultV (c : Dev nD) : Buf (Elt Ideal) ((c : Thread nD τ).loc main_v2) :=
  Cert.Score.result (Accum.arrX m c) (Accum.arrY m c) (Accum.arrR m c) (Accum.arrWt m c) (Accum.arrWr m c)

/-- What a row's last point writes back is that point's block of the result function. -/
theorem flushed_eq (c : Dev nD) (t : Fin cfg0.N) (hf : (cfg0.win 5).flush t = true) :
    (dats m 0 c).flushed 5 t = ((cfg0.win 5).blk t).view.read (Elt Ideal) (resultV m c) := by
  have h1 : t.val % 16 = 15 := (flush0_5 t).mp hf
  obtain ⟨-, -, -, -, -, ⟨e0, -⟩⟩ := Blocks.idx_facts t
  rw [Value.flushed5]
  funext y
  obtain ⟨p, u, rfl⟩ : ∃ (p : Fin 1024) (u : Fin 1), y = ix2 p u := ⟨y 0, y 1, eq_ix2 y⟩
  rw [View.read_apply]
  show (outsAt0 m c t.val t.isLt).1 (ix2 p u) = resultV m c (((cfg0.win 5).blk t).view.emb (ix2 p u))
  rw [Accum.out_row m c t h1 p u]
  show _ = Ideal.logistic (Cert.Score.score _ _ _ _ _ _)
  refine congrArg Ideal.logistic (congrArg _ ?_)
  apply Fin.ext
  show 1024 * (t.val / 16) + p.val = win0_5.index t 0 * 1024 + 1 * p.val
  rw [e0]; omega

/-- An index of the result array is in point `t`'s block iff each coordinate is in the block's range on its axis. -/
theorem mem_blk (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2).slice (win0_5.rect t)).set ↔ _
  rw [View.set_slice_whole, Rect.mem_set_unit]
  exact Iff.rfl

/-- Every row of the result array lies in the block written back after its block row's last step. -/
theorem cover (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have ht : 16 * ((i 0).val / 1024) + 15 < cfg0.N := Accum.lt_N (by omega)
  refine ⟨⟨16 * ((i 0).val / 1024) + 15, ht⟩, (flush0_5 _).mpr (by show (16 * ((i 0).val / 1024) + 15) % 16 = 15; omega), ?_⟩
  obtain ⟨-, -, -, -, -, ⟨e0, e1⟩⟩ := Blocks.idx_facts ⟨16 * ((i 0).val / 1024) + 15, ht⟩
  have e0' : win0_5.index ⟨16 * ((i 0).val / 1024) + 15, ht⟩ 0 = (16 * ((i 0).val / 1024) + 15) / 16 := e0
  rw [mem_blk]
  intro a
  match a with
  | ⟨0, _⟩ =>
    show win0_5.index ⟨16 * ((i 0).val / 1024) + 15, ht⟩ 0 * 1024 ≤ (i 0).val ∧ (i 0).val < win0_5.index ⟨16 * ((i 0).val / 1024) + 15, ht⟩ 0 * 1024 + 1024
    rw [e0']; omega
  | ⟨1, _⟩ =>
    show win0_5.index ⟨16 * ((i 0).val / 1024) + 15, ht⟩ 1 * 1 ≤ (i 1).val ∧ (i 1).val < win0_5.index ⟨16 * ((i 0).val / 1024) + 15, ht⟩ 1 * 1 + 1
    rw [e1]; omega

/-- So the result array ends holding the result function of the arrays the region finds. -/
theorem final (c : Dev nD) : (dats m 0 c).arrAt 5 cfg0.N = resultV m c :=
  (dats m 0 c).arrAt_eq_of_cover 5 (resultV m c) (flushed_eq m c) cover

/-- The transposed embedding weight the region reads is the host's transpose of the weight argument. -/
theorem arrWt_eq (c : Dev nD) : Accum.arrWt m c
    = transpose S16384x256 [1, 0] (m ((c : Thread nD τ).loc main_arg3)) transposes_S256x16384_S16384x256_1_0 := by
  show (V m c main_v0 : S16384x256.Idx → EReal) = _
  dsimp only [V, hostOps0]
  after_results

/-- The transposed relation weight the region reads is the host's transpose of the relation weight argument. -/
theorem arrWr_eq (c : Dev nD) : Accum.arrWr m c
    = transpose S512x256 [1, 0] (m ((c : Thread nD τ).loc main_arg4)) transposes_S256x512_S512x256_1_0 := by
  show (V m c main_v1 : S512x256.Idx → EReal) = _
  dsimp only [V, hostOps0]
  after_results

/-- The result function over the argument arrays at launch. -/
abbrev result (c : Dev nD) : Buf (Elt Ideal) ((c : Thread nD τ).loc main_v2) :=
  Cert.Score.result (m ((c : Thread nD τ).loc main_arg0)) (m ((c : Thread nD τ).loc main_arg1)) (m ((c : Thread nD τ).loc main_arg2))
    (transpose S16384x256 [1, 0] (m ((c : Thread nD τ).loc main_arg3)) transposes_S256x16384_S16384x256_1_0)
    (transpose S512x256 [1, 0] (m ((c : Thread nD τ).loc main_arg4)) transposes_S256x512_S512x256_1_0)

theorem resultV_eq (c : Dev nD) : resultV m c = result m c := by
  unfold resultV result
  rw [arrWt_eq, arrWr_eq]
  show Cert.Score.result (V m c main_arg0) (V m c main_arg1) (V m c main_arg2) _ _ = _
  rw [V_main_arg0, V_main_arg1, V_main_arg2]

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (resultV_eq m c)), (h c).2⟩)
    (Value.run_blocks m ρ)

end Cert.KernelIdeal.Whole
end
-- ==== Proof.RefValue.lean ====
/-
  The reference's result is the same result function.

  The reference takes the three projections as whole contractions against the transposed weights, multiplies them
  feature by feature in the order (relation · first) · second, sums over the 256 features from 0, and applies
  1 / (1 + exp(−s)). On the extended reals 1 / (1 + exp(−s)) is the logistic function, by definition, and 0 + s = s,
  so its result at row n is the logistic function of the score of row n.
-/
import proofs.«138756_j62843961475630_2_alg».proof.Proof.Gen.ReferenceIdeal.Read
import proofs.«138756_j62843961475630_2_alg».proof.Proof.Score
import Idealize.ShloMosaic.Lib.IdealHost

set_option maxRecDepth 16384

noncomputable section
namespace Cert.ReferenceIdeal.RefValue
open Cert.ReferenceIdeal Cert.ReferenceIdeal.Gen Cert.ReferenceIdeal.Read Idealize.ShloMosaic Idealize.ShloMosaic.TcCoe Idealize.ShloMosaic.ValueIdx
open scoped BigOperators

theorem ref_eq (x0 x1 : (⟨S4096x16384, .f32⟩ : BufTy).Contents (Elt Ideal)) (x2 : (⟨S4096x512, .f32⟩ : BufTy).Contents (Elt Ideal))
    (x3 : (⟨S256x16384, .f32⟩ : BufTy).Contents (Elt Ideal)) (x4 : (⟨S256x512, .f32⟩ : BufTy).Contents (Elt Ideal)) :
    val_main_v15 (F := Ideal) x0 x1 x2 x3 x4
      = Cert.Score.result x0 x1 x2 (val_main_v0 (F := Ideal) x3) (val_main_v4 (F := Ideal) x4) := by
  funext i
  rw [val_main_v15_apply, val_main_v14_apply, val_main_cst_1_apply, val_main_v13_apply, val_main_v12_apply,
    val_main_cst_0_apply, val_main_v11_apply, val_main_v10_apply, val_main_v9_apply, val_main_v8_apply, val_main_cst_apply]
  simp only [Ideal.ofBits_def, Ideal.ofBits_one_f32, Ideal.ofBits_zero_f32, zero_add]
  show Ideal.logistic (∑ k : Fin 256, val_main_v7 (F := Ideal) x0 x1 x2 x3 x4 (idx_main_v8 (idx_main_v9 i) k))
    = Ideal.logistic (Cert.Score.score x0 x1 x2 (val_main_v0 (F := Ideal) x3) (val_main_v4 (F := Ideal) x4) ⟨(i 0).val, (i 0).isLt⟩)
  refine congrArg Ideal.logistic ?_
  unfold Cert.Score.score
  refine Finset.sum_congr rfl fun d _ => ?_
  rw [val_main_v7_apply, val_main_v6_apply, val_main_v5_apply, val_main_v1_apply, val_main_v3_apply]
  have hl5 : ∀ k : Fin 512, lidx_main_v5 (idx_main_v8 (idx_main_v9 i) d) k = (ix2 ⟨(i 0).val, (i 0).isLt⟩ k : S4096x512.Idx) := fun k => funext fun a => Fin.ext (by
    match a with
    | ⟨0, _⟩ => rfl
    | ⟨1, _⟩ => rfl)
  have hr5 : ∀ k : Fin 512, ridx_main_v5 (idx_main_v8 (idx_main_v9 i) d) k = (ix2 k d : S512x256.Idx) := fun k => funext fun a => Fin.ext (by
    match a with
    | ⟨0, _⟩ => rfl
    | ⟨1, _⟩ => rfl)
  have hl1 : ∀ k : Fin 16384, lidx_main_v1 (idx_main_v8 (idx_main_v9 i) d) k = (ix2 ⟨(i 0).val, (i 0).isLt⟩ k : S4096x16384.Idx) := fun k => funext fun a => Fin.ext (by
    match a with
    | ⟨0, _⟩ => rfl
    | ⟨1, _⟩ => rfl)
  have hr1 : ∀ k : Fin 16384, ridx_main_v1 (idx_main_v8 (idx_main_v9 i) d) k = (ix2 k d : S16384x256.Idx) := fun k => funext fun a => Fin.ext (by
    match a with
    | ⟨0, _⟩ => rfl
    | ⟨1, _⟩ => rfl)
  have hl3 : ∀ k : Fin 16384, lidx_main_v3 (idx_main_v8 (idx_main_v9 i) d) k = (ix2 ⟨(i 0).val, (i 0).isLt⟩ k : S4096x16384.Idx) := fun k => funext fun a => Fin.ext (by
    match a with
    | ⟨0, _⟩ => rfl
    | ⟨1, _⟩ => rfl)
  have hr3 : ∀ k : Fin 16384, ridx_main_v3 (idx_main_v8 (idx_main_v9 i) d) k = (ix2 k d : S16384x256.Idx) := fun k => funext fun a => Fin.ext (by
    match a with
    | ⟨0, _⟩ => rfl
    | ⟨1, _⟩ => rfl)
  simp only [hl5, hr5, hl1, hr1, hl3, hr3]
  rfl

end Cert.ReferenceIdeal.RefValue
end
-- ==== Proof.lean ====
/-
  Equivalence, over the extended reals, of a fused knowledge-graph scoring kernel and its reference.

  Inputs: x, y : [4096, 16384], r : [4096, 512], an embedding weight [256, 16384] and a relation weight [256, 512].
  Both programs first transpose the two weights, to wt : [16384, 256] and wr : [512, 256]. The reference then takes
  three whole contractions, ea = x · wt, eb = y · wt, er = r · wr (each [4096, 256]), the score  s(n) = Σ_d (er(n, d) · ea(n, d)) · eb(n, d)  and
  1 / (1 + exp(−s(n))). The kernel works on a 4 x 16 grid: along the sixteen steps of a block row it accumulates the
  two embedding projections of 1024 rows, one 1024-column block of x and y against the matching 1024-row block of the
  transposed weight per step, from accumulators zeroed at the row's first step; at the row's last step it forms the
  relation projection, the same product and feature sum, applies the logistic function, and that [1024, 1] block is
  written back once per block row.

  With exact arithmetic the changes of float format are the identity, a matrix product is the sum of products, the
  logistic function is 1 / (1 + exp(−s)) by definition, and a contraction over 16384 positions taken in sixteen
  consecutive blocks of 1024 is the whole contraction by associativity and commutativity of addition alone. So both
  programs end with the same function of the arguments (Cert.Score.result) in the result array; no finiteness of the
  inputs is used. The idealization rewrote no operation of the kernel, so that claim is trivial; the three frame
  claims are the generated ones (the reference's is its generated run with the result dropped).
-/
import proofs.«138756_j62843961475630_2_alg».proof.Defs
import proofs.«138756_j62843961475630_2_alg».proof.Proof.Gen.Kernel
import proofs.«138756_j62843961475630_2_alg».proof.Proof.Gen.Kernel.Skeleton
import proofs.«138756_j62843961475630_2_alg».proof.Proof.Gen.Kernel.Launch
import proofs.«138756_j62843961475630_2_alg».proof.Proof.Gen.Kernel.Points
import proofs.«138756_j62843961475630_2_alg».proof.Proof.Gen.Kernel.Frame
import proofs.«138756_j62843961475630_2_alg».proof.Proof.Gen.KernelIdeal
import proofs.«138756_j62843961475630_2_alg».proof.Proof.Gen.KernelIdeal.Skeleton
import proofs.«138756_j62843961475630_2_alg».proof.Proof.Gen.KernelIdeal.Launch
import proofs.«138756_j62843961475630_2_alg».proof.Proof.Gen.KernelIdeal.Points
import proofs.«138756_j62843961475630_2_alg».proof.Proof.Gen.KernelIdeal.Frame
import proofs.«138756_j62843961475630_2_alg».proof.Proof.Gen.KernelIdeal.Value
import proofs.«138756_j62843961475630_2_alg».proof.Proof.Gen.ReferenceIdeal
import proofs.«138756_j62843961475630_2_alg».proof.Proof.Gen.ReferenceIdeal.Run
import proofs.«138756_j62843961475630_2_alg».proof.Proof.Gen.ReferenceIdeal.Read
import proofs.«138756_j62843961475630_2_alg».proof.Proof.Gen.Pre_finite_inputs
import proofs.«138756_j62843961475630_2_alg».proof.Proof.Whole
import proofs.«138756_j62843961475630_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result function of the arguments in the
    result array: the kernel by the accumulation over each block row, the reference operation by operation. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
